-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16x64 : Shape := ⟨2, ![16, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S4x2048x1024 .f32) (main_arg1 : FVec F S16x64 .f32) (main_arg2 : FVec F S16x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S4x2048x1024 : Shape := ⟨3, ![4, 2048, 1024]⟩
abbrev S16x64 : Shape := ⟨2, ![16, 64]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x16x1x64 : Shape := ⟨4, ![1, 16, 1, 64]⟩
abbrev S4x16x1x64 : Shape := ⟨4, ![4, 16, 1, 64]⟩
abbrev S64x64 : Shape := ⟨2, ![64, 64]⟩
abbrev S64x1x64 : Shape := ⟨3, ![64, 1, 64]⟩
abbrev S1x512x64 : Shape := ⟨3, ![1, 512, 64]⟩
abbrev S1x2048x64 : Shape := ⟨3, ![1, 2048, 64]⟩
abbrev S1x1x64 : Shape := ⟨3, ![1, 1, 64]⟩
abbrev S512x64 : Shape := ⟨2, ![512, 64]⟩
abbrev S2048x64 : Shape := ⟨2, ![2048, 64]⟩
abbrev S1x64 : Shape := ⟨2, ![1, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S16x64, .f32⟩
  | .hbm, ⟨2, _⟩ => ⟨S16x64, .f32⟩
  | .hbm, ⟨3, _⟩ => ⟨S4x2048x16x64, .f32⟩
  | .hbm, ⟨4, _⟩ => ⟨S4x16x2048x64, .f32⟩
  | .hbm, ⟨5, _⟩ => ⟨S64x2048x64, .f32⟩
  | .hbm, ⟨6, _⟩ => ⟨S1x16x1x64, .f32⟩
  | .hbm, ⟨7, _⟩ => ⟨S4x16x1x64, .f32⟩
  | .hbm, ⟨8, _⟩ => ⟨S64x64, .f32⟩
  | .hbm, ⟨9, _⟩ => ⟨S64x1x64, .f32⟩
  | .hbm, ⟨10, _⟩ => ⟨S1x16x1x64, .f32⟩
  | .hbm, ⟨11, _⟩ => ⟨S4x16x1x64, .f32⟩
  | .hbm, ⟨12, _⟩ => ⟨S64x64, .f32⟩
  | .hbm, ⟨13, _⟩ => ⟨S64x1x64, .f32⟩
  | .hbm, ⟨14, _⟩ => ⟨S64x2048x64, .f32⟩
  | .hbm, ⟨15, _⟩ => ⟨S4x16x2048x64, .f32⟩
  | .hbm, ⟨16, _⟩ => ⟨S4x2048x16x64, .f32⟩
  | .hbm, ⟨17, _⟩ => ⟨S4x2048x1024, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x512x64, .f32⟩
  | .local _ .vmem, ⟨9, _⟩ => ⟨S1x512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  shapeCasts_S16x64_S1x16x1x64 : S16x64.ShapeCasts S1x16x1x64
  bcast_S1x16x1x64_S4x16x1x64_0_1_2_3 : S1x16x1x64.BroadcastsInDim S4x16x1x64 (![0, 1, 2, 3] : Fin 4 → Fin S4x16x1x64.rank)
  shapeCasts_S4x16x1x64_S64x64 : S4x16x1x64.ShapeCasts S64x64
  shapeCasts_S64x64_S64x1x64 : S64x64.ShapeCasts S64x1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S512x64 : S1x64.Broadcasts S512x64
  bitsLt_bf16_f32 : FTy.bits .bf16 < FTy.bits .f32
  broadcasts_S1x64_S2048x64 : S1x64.Broadcasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S64x1x64.size a
  hwx0_2 : ∀ i : grid0.Coords, EltTy.bits .f32 = 32 ∨ (Rect.block (s := S64x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S64x1x64.size a
  hwx0_3 : ∀ i : grid0.Coords, EltTy.bits .f32 = 32 ∨ (Rect.block (s := S64x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v2) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16x64 : Shape := ⟨2, ![16, 64]⟩
abbrev S4x2048x16x64 : Shape := ⟨4, ![4, 2048, 16, 64]⟩
abbrev S4x16x2048x64 : Shape := ⟨4, ![4, 16, 2048, 64]⟩
abbrev S1x16x1x64 : Shape := ⟨4, ![1, 16, 1, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S16x64, .f32⟩
  | .hbm, ⟨2, _⟩ => ⟨S16x64, .f32⟩
  | .hbm, ⟨3, _⟩ => ⟨S4x2048x16x64, .f32⟩
  | .hbm, ⟨4, _⟩ => ⟨S4x16x2048x64, .f32⟩
  | .hbm, ⟨5, _⟩ => ⟨S1x16x1x64, .f32⟩
  | .hbm, ⟨6, _⟩ => ⟨S4x16x2048x64, .f32⟩
  | .hbm, ⟨7, _⟩ => ⟨S4x16x2048x64, .f32⟩
  | .hbm, ⟨8, _⟩ => ⟨S1x16x1x64, .f32⟩
  | .hbm, ⟨9, _⟩ => ⟨S4x16x2048x64, .f32⟩
  | .hbm, ⟨10, _⟩ => ⟨S4x16x2048x64, .f32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S_, .f32⟩
  | .hbm, ⟨16, _⟩ => ⟨S4x16x2048, .f32⟩
  | .hbm, ⟨17, _⟩ => ⟨S_, .f32⟩
  | .hbm, ⟨18, _⟩ => ⟨S4x16x2048, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x64, .f32⟩
  | .hbm, ⟨30, _⟩ => ⟨S4x2048x16x64, .f32⟩
  | .hbm, ⟨31, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S16x64_S1x16x1x64_1_3 : S16x64.BroadcastsInDim S1x16x1x64 (![1, 3] : Fin 2 → Fin S1x16x1x64.rank)
  bcast_S1x16x1x64_S4x16x2048x64_0_1_2_3 : S1x16x1x64.BroadcastsInDim S4x16x2048x64 (![0, 1, 2, 3] : Fin 4 → Fin S4x16x2048x64.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsBody.lean ====
/-
  The kernel body of `Kernel` at one grid point, and the pipeline's proof data.

  A grid point (bh, qt) of the 64 × 4 grid is handed five staging buffers: a 512-row tile of the
  (batch·head) slab `bh` of the re-laid input (the queries), the whole 2048-row slab `bh` of the SAME
  array (keys and values), the two 64-entry scale rows of head `bh`, and the 512-row output tile.  The
  body reads the four inputs, computes one value — its one stored value: scaled scores, a row-wise
  softmax, the weighted sum of the value rows — and stores it over the whole output tile.  So after the
  body every input buffer still holds its block and the output buffer holds the payload of the four
  input blocks; that is the proof data `dats`.  The query tile and the key/value slab are two windows on
  ONE array: each holds half of that array's share.
-/
import proofs.«168188_j65481071396855_2_alg».proof.Proof.Gen.Kernel.Launch
import proofs.«168188_j65481071396855_2_alg».proof.Proof.Gen.Kernel.Skeleton
import proofs.«168188_j65481071396855_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The buffers' contents when the region is entered: the launch memory after the host lines before it
    (the re-laying of the input into (batch·head) slabs and the tiling of the two scale tables). -/
abbrev W0 (c : Dev nD) : Valuation τ sig (Elt F) := StableHlo.after hostOps0 (fun b => m (c, b))
/-- The same read at a TensorCore reference. -/
abbrev V (c : Dev nD) (b : Ref sig .tc) : Buf (Elt F) ((c : Thread nD τ).loc b) := W0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: a window that is
    not fetched at a point has the block index of the point before, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer read or written whole -/

abbrev rQ : Rect S1x512x64 := Rect.unit (s := S1x512x64) ![0, 0, 0] S1x512x64.size Facts₀.inb_S1x512x64_S1x512x64_0_0_0
abbrev rKV : Rect S1x2048x64 := Rect.unit (s := S1x2048x64) ![0, 0, 0] S1x2048x64.size Facts₀.inb_S1x2048x64_S1x2048x64_0_0_0
abbrev rS : Rect S1x1x64 := Rect.unit (s := S1x1x64) ![0, 0, 0] S1x1x64.size Facts₀.inb_S1x1x64_S1x1x64_0_0_0

/-- The output tile after the body, from the four input blocks: its one store, of the payload, over the whole tile. -/
def outTile (x0 : Vec F S1x512x64 .f32) (x1 : Vec F S1x2048x64 .f32) (x2 x3 : Vec F S1x1x64 .f32) : Vec F S1x512x64 .f32 :=
  View.canon [⟨rQ, k0_pay1 (View.ld x0 rQ) (View.ld x1 rKV) (View.ld x2 rS) (View.ld x3 rS)⟩]

/-- The one store covers the tile. -/
theorem coverTile (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's triple -/

set_option maxHeartbeats 1000000 in
/-- The body on whole staging memrefs, the inputs' at contents `x0 … x3` and the output's at anything, runs to the
    continuation holding the inputs' as they were and the output's at `outTile` of them. -/
theorem sound_kernel (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x512x64 .f32) (harg6 : arg6.IsWhole)
    (x0 : Vec F S1x512x64 .f32) (x1 : Vec F S1x2048x64 .f32) (x2 x3 : Vec F S1x1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outTile x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The pipeline's proof data -/

/-- The proof data of the pipeline on core `c`: the arrays as the region finds them; after the body at point `t` each
    input's buffer at its block and the output's at `outTile` of the four input blocks; the invariant the scoped rest
    and the generator register, untouched; nothing owed.  The query tile and the key/value slab read ONE array: each
    window holds a half of its share (an input array is only read, and is whole again once the halves are rejoined). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The run of `Kernel`'s @main: the host lines that re-lay the input into (batch·head) slabs and tile the scale
  tables, the kernel region, the host lines that re-lay the result back — as three segments over one thread state,
  "every unscoped buffer whole at a valuation".

  The region's windows 0 and 1 (the query tile and the key/value slab) stage ONE array.  At the region's entry that
  array's buffer, held whole, is dealt to the two windows as the two halves of its share; both only read it, so at the
  exit the halves hold the same contents and are joined again.  The one array the region changes is the output's.
-/
import proofs.«168188_j65481071396855_2_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents between the segments -/

/-- The launch memory as a valuation. -/
abbrev Wm (c : Dev nD) : Valuation τ sig (Elt F) := fun b => m (c, b)

/-- At the region's exit: the output array at what the pipeline's write-backs leave, every other buffer as entered
    (the other arrays are inputs, never written). -/
def W1 (c : Dev nD) : Valuation τ sig (Elt F) :=
  Function.update (W0 m c) (Proc.devRef .tc main_v11) ((dats m 0 c).arrAt 4 cfg0.N)

theorem W1_out (c : Dev nD) : W1 m c (Proc.devRef .tc main_v11) = (dats m 0 c).arrAt 4 cfg0.N := by
  unfold W1; exact Function.update_self ..
theorem W1_of_ne (c : Dev nD) (b : Ref sig .tc) (hb : b ≠ main_v11) : W1 m c (Proc.devRef .tc b) = W0 m c (Proc.devRef .tc b) := by
  unfold W1; exact Function.update_of_ne (StableHlo.devRef_ne_of_ne hb) ..

/-- After the host lines that follow the region. -/
abbrev W2 (c : Dev nD) : Valuation τ sig (Elt F) := StableHlo.after hostOps1 (W1 m c)

/-! ## The shared array dealt to its two windows, and joined again -/

/-- The pipeline's arrays, window by window: the two windows on the re-laid input at the two halves of its share. -/
theorem arrays_chain (c : Dev nD) (Fa : (w : Fin cfg0.W) → Buf (Elt F) ((cfg0.win w).arr.view.loc (c.tc : Thread nD τ))) :
    ((dats m 0 c).arrays Fa : sProp 𝕄) = iprop(
      (((c.tc : Thread nD τ).loc main_v2) ↦{fullShare.left} Fa 0) ∗ (((c.tc : Thread nD τ).loc main_v2) ↦{fullShare.right} Fa 1)
      ∗ (((c.tc : Thread nD τ).loc main_v6) ↦{fullShare} Fa 2) ∗ (((c.tc : Thread nD τ).loc main_v10) ↦{fullShare} Fa 3)
      ∗ (((c.tc : Thread nD τ).loc main_v11) ↦{fullShare} Fa 4)) := by
  unfold Dat.arrays
  rw [bigSep_W0, (arr_whole0 0).set_eq_univ, (arr_whole0 2).set_eq_univ, (arr_whole0 3).set_eq_univ, (arr_whole0 4).set_eq_univ]
  rfl

/-- The distinct buffers behind the windows' arrays, one by one. -/
theorem arrBufs_chain (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄) = iprop(
      (((c.tc : Thread nD τ).loc main_v2) ↦{fullShare} V' main_v2) ∗ (((c.tc : Thread nD τ).loc main_v6) ↦{fullShare} V' main_v6)
      ∗ (((c.tc : Thread nD τ).loc main_v10) ↦{fullShare} V' main_v10) ∗ (((c.tc : Thread nD τ).loc main_v11) ↦{fullShare} V' main_v11)) := by
  unfold Pipeline.arrBufs
  exact bigSep_eq_bigSepL_of_eq [main_v2, main_v6, main_v10, main_v11] (by decide) (by decide) _

/-- ENTRY: every unscoped buffer whole at the entry contents gives the pipeline's arrays at their entry contents — the
    re-laid input's buffer split into the halves its two windows hold — and the buffers no window stages. -/
theorem arrays_of_held (c : Dev nD) :
    (StableHlo.held (c.tc : Thread nD τ) (Pipeline.ucRefs τ sig) (W0 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (W0 m c), Pipeline.unscopedBufs_split₀ cfgs (0 : Fin 1) winFacts₀0.arr_unscoped c]
  refine sep_mono ?_ .rfl
  rw [arrBufs_chain, arrays_chain]
  iintro ⟨H2, H6, H10, H11⟩
  ihave H := (pointsTo_share (PosShare.mem_left_op_right fullShare)).1 $$ H2
  icases H with ⟨Hl, Hr⟩
  isplitl [Hl]; · iexact Hl
  isplitl [Hr]; · iexact Hr
  isplitl [H6]; · iexact H6
  isplitl [H10]; · iexact H10
  iexact H11

/-- EXIT: the arrays as the pipeline leaves them — the inputs as entered, so that the two halves of the shared buffer
    hold the same contents and join — and the bypassing buffers are every unscoped buffer at the exit contents. -/
theorem held_of_arrays (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := by
  rw [← Pipeline.unscopedBufs_held c (W1 m c), Pipeline.unscopedBufs_split₀ cfgs (0 : Fin 1) winFacts₀0.arr_unscoped c]
  refine sep_mono ?_ (Entails.of_eq ?_)
  · rw [arrBufs_chain, arrays_chain]
    rw [(dats m 0 c).arrAt_in 0 rfl, (dats m 0 c).arrAt_in 1 rfl, (dats m 0 c).arrAt_in 2 rfl, (dats m 0 c).arrAt_in 3 rfl,
      A_eq, A_eq, A_eq, A_eq, W1_out, W1_of_ne m c main_v2 (by decide), W1_of_ne m c main_v6 (by decide), W1_of_ne m c main_v10 (by decide)]
    iintro ⟨Hl, Hr, H6, H10, H11⟩
    ihave H2 := (pointsTo_share (PosShare.mem_left_op_right fullShare)).2 $$ [Hl Hr]
    · isplitl [Hl] <;> iassumption
    isplitl [H2]; · iexact H2
    isplitl [H6]; · iexact H6
    isplitl [H10]; · iexact H10
    iexact H11
  · unfold Pipeline.unscopedRest
    refine bigSep_congr fun b hb => ?_
    have hb' : b ≠ main_v11 := fun e => (Finset.mem_sdiff.mp hb).2 (e ▸ (by decide : main_v11 ∈ Finset.univ.image (Pipeline.arrRef spec0)))
    show ((c.tc : Thread nD τ).loc b ↦{fullShare} W0 m c (Proc.devRef .tc b) : sProp 𝕄) = ((c.tc : Thread nD τ).loc b ↦{fullShare} W1 m c (Proc.devRef .tc b))
    rw [W1_of_ne m c b hb']

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
abbrev L : GSem nD τ sig → Finset Unit := fun _ => ∅
abbrev lv : GSem nD τ sig → Unit → ℕ := fun _ _ => 0
/-- What rides beside the buffers through every segment: the generator register at some state, and that the core owes
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W2 m c) ∗ ∃ r, prngReg c r)

/-! ## The three segments -/

def seg0 : Pipeline.HostSeg (Name := ℕ) (U := UR sig nD τ) (pcfgs (F := F)) defs₀ 𝒱₀ L lv :=
  hseg hostOps0 hostOps0_sub hostOps0_fresh (Wm m)
def seg2 : Pipeline.HostSeg (Name := ℕ) (U := UR sig nD τ) (pcfgs (F := F)) defs₀ 𝒱₀ L lv :=
  hseg hostOps1 hostOps1_sub hostOps1_fresh (W1 m)

set_option backward.isDefEq.respectTransparency.types false in
/-- The region over the thread state: entered from every unscoped buffer at the entry contents, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
        ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := held_of_arrays m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as the segments, and the run -/

abbrev segs : List (Pipeline.Seg (pcfgs (F := F)) adm (pdats m) () defs₀ 𝒱₀ L lv) :=
  [ .host (seg0 m), .region (reg0 m), .host (seg2 m) ]

theorem main_run (c : Dev nD) : main (F := F) c = Pipeline.Seg.run (segs m) :=
  main_segs adm (pdats m) () 𝒱₀ L lv (seg0 m) (seg2 m) (reg0 m) rfl rfl c

set_option backward.isDefEq.respectTransparency.types false in
/-- From any memory with zero counters every weakly fair execution of @main terminates, nothing faulting, and in every
    final state every unscoped buffer holds the last valuation's contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wm m c) ∗ R c)) (Tₙ := Tₙ m)
    (hch := ⟨fun _ => .rfl, fun _ => .rfl, fun _ => .rfl, fun c =>
      show iprop(StableHlo.held (c : Thread nD τ) (Pipeline.ucRefs τ sig) (W2 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wm m c)
        from Pipeline.unscopedBufs_held c (Wm m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The arguments end as launched -/

theorem notW0 (c : Dev nD) (b : Ref sig .tc) (hb : b = main_arg0 ∨ b = main_arg1 ∨ b = main_arg2) :
    W2 m c (Proc.devRef .tc b) = m ((c : Thread nD τ).loc b) := by
  have h1 : W2 m c (Proc.devRef .tc b) = W1 m c (Proc.devRef .tc b) :=
    StableHlo.after_of_forall_not_mem (b := Proc.devRef .tc b) _ _ (List.forall_iff_forall_mem.mp (by
      rcases hb with rfl | rfl | rfl <;>
      · simp only [hostOps1, List.Forall, StableHlo.unary_writes, StableHlo.reshape_writes, Finset.mem_singleton]
        repeat' apply And.intro
        all_goals exact StableHlo.devRef_ne_of_ne (by decide)))
  have h2 : W1 m c (Proc.devRef .tc b) = W0 m c (Proc.devRef .tc b) :=
    W1_of_ne m c b (by rcases hb with rfl | rfl | rfl <;> decide)
  have h3 : W0 m c (Proc.devRef .tc b) = m ((c : Thread nD τ).loc b) :=
    StableHlo.after_of_forall_not_mem (b := Proc.devRef .tc b) _ _ (List.forall_iff_forall_mem.mp (by
      rcases hb with rfl | rfl | rfl <;>
      · simp only [hostOps0, List.Forall, StableHlo.unary_writes, StableHlo.reshape_writes, Finset.mem_singleton]
        repeat' apply And.intro
        all_goals exact StableHlo.devRef_ne_of_ne (by decide)))
  exact h1.trans (h2.trans h3)

/-- THE FRAME: @main runs to the end, nothing faulting, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (notW0 m c main_arg0 (.inl rfl)),
     (h c _ (mem_uc main_arg1 (by decide))).trans (notW0 m c main_arg1 (.inr (.inl rfl))),
     (h c _ (mem_uc main_arg2 (by decide))).trans (notW0 m c main_arg2 (.inr (.inr rfl)))⟩) (run_main m ρ)

end Cert.Kernel.Hand

end
-- ==== Proof.IdealBody.lean ====
/-
  The kernel body of `KernelIdeal` at one grid point, and the pipeline's proof data.

  A grid point (bh, qt) of the 64 × 4 grid is handed five staging buffers: a 512-row tile of the
  (batch·head) slab `bh` of the re-laid input (the queries), the whole 2048-row slab `bh` of the SAME
  array (keys and values), the two 64-entry scale rows of head `bh`, and the 512-row output tile.  The
  body reads the four inputs, computes one value — its one stored value: scaled scores, a row-wise
  softmax, the weighted sum of the value rows — and stores it over the whole output tile.  So after the
  body every input buffer still holds its block and the output buffer holds the payload of the four
  input blocks; that is the proof data `dats`.  The query tile and the key/value slab are two windows on
  ONE array: each holds half of that array's share.
-/
import proofs.«168188_j65481071396855_2_alg».proof.Proof.Gen.KernelIdeal.Launch
import proofs.«168188_j65481071396855_2_alg».proof.Proof.Gen.KernelIdeal.Skeleton
import proofs.«168188_j65481071396855_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The buffers' contents when the region is entered: the launch memory after the host lines before it
    (the re-laying of the input into (batch·head) slabs and the tiling of the two scale tables). -/
abbrev W0 (c : Dev nD) : Valuation τ sig (Elt F) := StableHlo.after hostOps0 (fun b => m (c, b))
/-- The same read at a TensorCore reference. -/
abbrev V (c : Dev nD) (b : Ref sig .tc) : Buf (Elt F) ((c : Thread nD τ).loc b) := W0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: a window that is
    not fetched at a point has the block index of the point before, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer read or written whole -/

abbrev rQ : Rect S1x512x64 := Rect.unit (s := S1x512x64) ![0, 0, 0] S1x512x64.size Facts₀.inb_S1x512x64_S1x512x64_0_0_0
abbrev rKV : Rect S1x2048x64 := Rect.unit (s := S1x2048x64) ![0, 0, 0] S1x2048x64.size Facts₀.inb_S1x2048x64_S1x2048x64_0_0_0
abbrev rS : Rect S1x1x64 := Rect.unit (s := S1x1x64) ![0, 0, 0] S1x1x64.size Facts₀.inb_S1x1x64_S1x1x64_0_0_0

/-- The output tile after the body, from the four input blocks: its one store, of the payload, over the whole tile. -/
def outTile (x0 : Vec F S1x512x64 .f32) (x1 : Vec F S1x2048x64 .f32) (x2 x3 : Vec F S1x1x64 .f32) : Vec F S1x512x64 .f32 :=
  View.canon [⟨rQ, k0_pay1 (View.ld x0 rQ) (View.ld x1 rKV) (View.ld x2 rS) (View.ld x3 rS)⟩]

/-- The one store covers the tile. -/
theorem coverTile (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's triple -/

set_option maxHeartbeats 1000000 in
/-- The body on whole staging memrefs, the inputs' at contents `x0 … x3` and the output's at anything, runs to the
    continuation holding the inputs' as they were and the output's at `outTile` of them. -/
theorem sound_kernel (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x512x64 .f32) (harg6 : arg6.IsWhole)
    (x0 : Vec F S1x512x64 .f32) (x1 : Vec F S1x2048x64 .f32) (x2 x3 : Vec F S1x1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outTile x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The pipeline's proof data -/

/-- The proof data of the pipeline on core `c`: the arrays as the region finds them; after the body at point `t` each
    input's buffer at its block and the output's at `outTile` of the four input blocks; the invariant the scoped rest
    and the generator register, untouched; nothing owed.  The query tile and the key/value slab read ONE array: each
    window holds a half of its share (an input array is only read, and is whole again once the halves are rejoined). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The run of `KernelIdeal`'s @main: the host lines that re-lay the input into (batch·head) slabs and tile the scale
  tables, the kernel region, the host lines that re-lay the result back — as three segments over one thread state,
  "every unscoped buffer whole at a valuation".

  The region's windows 0 and 1 (the query tile and the key/value slab) stage ONE array.  At the region's entry that
  array's buffer, held whole, is dealt to the two windows as the two halves of its share; both only read it, so at the
  exit the halves hold the same contents and are joined again.  The one array the region changes is the output's.
-/
import proofs.«168188_j65481071396855_2_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents between the segments -/

/-- The launch memory as a valuation. -/
abbrev Wm (c : Dev nD) : Valuation τ sig (Elt F) := fun b => m (c, b)

/-- At the region's exit: the output array at what the pipeline's write-backs leave, every other buffer as entered
    (the other arrays are inputs, never written). -/
def W1 (c : Dev nD) : Valuation τ sig (Elt F) :=
  Function.update (W0 m c) (Proc.devRef .tc main_v11) ((dats m 0 c).arrAt 4 cfg0.N)

theorem W1_out (c : Dev nD) : W1 m c (Proc.devRef .tc main_v11) = (dats m 0 c).arrAt 4 cfg0.N := by
  unfold W1; exact Function.update_self ..
theorem W1_of_ne (c : Dev nD) (b : Ref sig .tc) (hb : b ≠ main_v11) : W1 m c (Proc.devRef .tc b) = W0 m c (Proc.devRef .tc b) := by
  unfold W1; exact Function.update_of_ne (StableHlo.devRef_ne_of_ne hb) ..

/-- After the host lines that follow the region. -/
abbrev W2 (c : Dev nD) : Valuation τ sig (Elt F) := StableHlo.after hostOps1 (W1 m c)

/-! ## The shared array dealt to its two windows, and joined again -/

/-- The pipeline's arrays, window by window: the two windows on the re-laid input at the two halves of its share. -/
theorem arrays_chain (c : Dev nD) (Fa : (w : Fin cfg0.W) → Buf (Elt F) ((cfg0.win w).arr.view.loc (c.tc : Thread nD τ))) :
    ((dats m 0 c).arrays Fa : sProp 𝕄) = iprop(
      (((c.tc : Thread nD τ).loc main_v2) ↦{fullShare.left} Fa 0) ∗ (((c.tc : Thread nD τ).loc main_v2) ↦{fullShare.right} Fa 1)
      ∗ (((c.tc : Thread nD τ).loc main_v6) ↦{fullShare} Fa 2) ∗ (((c.tc : Thread nD τ).loc main_v10) ↦{fullShare} Fa 3)
      ∗ (((c.tc : Thread nD τ).loc main_v11) ↦{fullShare} Fa 4)) := by
  unfold Dat.arrays
  rw [bigSep_W0, (arr_whole0 0).set_eq_univ, (arr_whole0 2).set_eq_univ, (arr_whole0 3).set_eq_univ, (arr_whole0 4).set_eq_univ]
  rfl

/-- The distinct buffers behind the windows' arrays, one by one. -/
theorem arrBufs_chain (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄) = iprop(
      (((c.tc : Thread nD τ).loc main_v2) ↦{fullShare} V' main_v2) ∗ (((c.tc : Thread nD τ).loc main_v6) ↦{fullShare} V' main_v6)
      ∗ (((c.tc : Thread nD τ).loc main_v10) ↦{fullShare} V' main_v10) ∗ (((c.tc : Thread nD τ).loc main_v11) ↦{fullShare} V' main_v11)) := by
  unfold Pipeline.arrBufs
  exact bigSep_eq_bigSepL_of_eq [main_v2, main_v6, main_v10, main_v11] (by decide) (by decide) _

/-- ENTRY: every unscoped buffer whole at the entry contents gives the pipeline's arrays at their entry contents — the
    re-laid input's buffer split into the halves its two windows hold — and the buffers no window stages. -/
theorem arrays_of_held (c : Dev nD) :
    (StableHlo.held (c.tc : Thread nD τ) (Pipeline.ucRefs τ sig) (W0 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (W0 m c), Pipeline.unscopedBufs_split₀ cfgs (0 : Fin 1) winFacts₀0.arr_unscoped c]
  refine sep_mono ?_ .rfl
  rw [arrBufs_chain, arrays_chain]
  iintro ⟨H2, H6, H10, H11⟩
  ihave H := (pointsTo_share (PosShare.mem_left_op_right fullShare)).1 $$ H2
  icases H with ⟨Hl, Hr⟩
  isplitl [Hl]; · iexact Hl
  isplitl [Hr]; · iexact Hr
  isplitl [H6]; · iexact H6
  isplitl [H10]; · iexact H10
  iexact H11

/-- EXIT: the arrays as the pipeline leaves them — the inputs as entered, so that the two halves of the shared buffer
    hold the same contents and join — and the bypassing buffers are every unscoped buffer at the exit contents. -/
theorem held_of_arrays (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := by
  rw [← Pipeline.unscopedBufs_held c (W1 m c), Pipeline.unscopedBufs_split₀ cfgs (0 : Fin 1) winFacts₀0.arr_unscoped c]
  refine sep_mono ?_ (Entails.of_eq ?_)
  · rw [arrBufs_chain, arrays_chain]
    rw [(dats m 0 c).arrAt_in 0 rfl, (dats m 0 c).arrAt_in 1 rfl, (dats m 0 c).arrAt_in 2 rfl, (dats m 0 c).arrAt_in 3 rfl,
      A_eq, A_eq, A_eq, A_eq, W1_out, W1_of_ne m c main_v2 (by decide), W1_of_ne m c main_v6 (by decide), W1_of_ne m c main_v10 (by decide)]
    iintro ⟨Hl, Hr, H6, H10, H11⟩
    ihave H2 := (pointsTo_share (PosShare.mem_left_op_right fullShare)).2 $$ [Hl Hr]
    · isplitl [Hl] <;> iassumption
    isplitl [H2]; · iexact H2
    isplitl [H6]; · iexact H6
    isplitl [H10]; · iexact H10
    iexact H11
  · unfold Pipeline.unscopedRest
    refine bigSep_congr fun b hb => ?_
    have hb' : b ≠ main_v11 := fun e => (Finset.mem_sdiff.mp hb).2 (e ▸ (by decide : main_v11 ∈ Finset.univ.image (Pipeline.arrRef spec0)))
    show ((c.tc : Thread nD τ).loc b ↦{fullShare} W0 m c (Proc.devRef .tc b) : sProp 𝕄) = ((c.tc : Thread nD τ).loc b ↦{fullShare} W1 m c (Proc.devRef .tc b))
    rw [W1_of_ne m c b hb']

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
abbrev L : GSem nD τ sig → Finset Unit := fun _ => ∅
abbrev lv : GSem nD τ sig → Unit → ℕ := fun _ _ => 0
/-- What rides beside the buffers through every segment: the generator register at some state, and that the core owes
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W2 m c) ∗ ∃ r, prngReg c r)

/-! ## The three segments -/

def seg0 : Pipeline.HostSeg (Name := ℕ) (U := UR sig nD τ) (pcfgs (F := F)) defs₀ 𝒱₀ L lv :=
  hseg hostOps0 hostOps0_sub hostOps0_fresh (Wm m)
def seg2 : Pipeline.HostSeg (Name := ℕ) (U := UR sig nD τ) (pcfgs (F := F)) defs₀ 𝒱₀ L lv :=
  hseg hostOps1 hostOps1_sub hostOps1_fresh (W1 m)

set_option backward.isDefEq.respectTransparency.types false in
/-- The region over the thread state: entered from every unscoped buffer at the entry contents, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
        ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := held_of_arrays m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as the segments, and the run -/

abbrev segs : List (Pipeline.Seg (pcfgs (F := F)) adm (pdats m) () defs₀ 𝒱₀ L lv) :=
  [ .host (seg0 m), .region (reg0 m), .host (seg2 m) ]

theorem main_run (c : Dev nD) : main (F := F) c = Pipeline.Seg.run (segs m) :=
  main_segs adm (pdats m) () 𝒱₀ L lv (seg0 m) (seg2 m) (reg0 m) rfl rfl c

set_option backward.isDefEq.respectTransparency.types false in
/-- From any memory with zero counters every weakly fair execution of @main terminates, nothing faulting, and in every
    final state every unscoped buffer holds the last valuation's contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wm m c) ∗ R c)) (Tₙ := Tₙ m)
    (hch := ⟨fun _ => .rfl, fun _ => .rfl, fun _ => .rfl, fun c =>
      show iprop(StableHlo.held (c : Thread nD τ) (Pipeline.ucRefs τ sig) (W2 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wm m c)
        from Pipeline.unscopedBufs_held c (Wm m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The arguments end as launched -/

theorem notW0 (c : Dev nD) (b : Ref sig .tc) (hb : b = main_arg0 ∨ b = main_arg1 ∨ b = main_arg2) :
    W2 m c (Proc.devRef .tc b) = m ((c : Thread nD τ).loc b) := by
  have h1 : W2 m c (Proc.devRef .tc b) = W1 m c (Proc.devRef .tc b) :=
    StableHlo.after_of_forall_not_mem (b := Proc.devRef .tc b) _ _ (List.forall_iff_forall_mem.mp (by
      rcases hb with rfl | rfl | rfl <;>
      · simp only [hostOps1, List.Forall, StableHlo.unary_writes, StableHlo.reshape_writes, Finset.mem_singleton]
        repeat' apply And.intro
        all_goals exact StableHlo.devRef_ne_of_ne (by decide)))
  have h2 : W1 m c (Proc.devRef .tc b) = W0 m c (Proc.devRef .tc b) :=
    W1_of_ne m c b (by rcases hb with rfl | rfl | rfl <;> decide)
  have h3 : W0 m c (Proc.devRef .tc b) = m ((c : Thread nD τ).loc b) :=
    StableHlo.after_of_forall_not_mem (b := Proc.devRef .tc b) _ _ (List.forall_iff_forall_mem.mp (by
      rcases hb with rfl | rfl | rfl <;>
      · simp only [hostOps0, List.Forall, StableHlo.unary_writes, StableHlo.reshape_writes, Finset.mem_singleton]
        repeat' apply And.intro
        all_goals exact StableHlo.devRef_ne_of_ne (by decide)))
  exact h1.trans (h2.trans h3)

/-- THE FRAME: @main runs to the end, nothing faulting, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (notW0 m c main_arg0 (.inl rfl)),
     (h c _ (mem_uc main_arg1 (by decide))).trans (notW0 m c main_arg1 (.inr (.inl rfl))),
     (h c _ (mem_uc main_arg2 (by decide))).trans (notW0 m c main_arg2 (.inr (.inr rfl)))⟩) (run_main m ρ)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.AttnSpec.lean ====
/-
  One row of single-pass scaled dot-product attention on the extended reals, as a function of plain finite
  families: a query row `q` of 64 entries, the 2048 key/value rows `kv` of the same head, and the head's two
  scale rows `r` (for the query) and `e` (for the keys).

    s j   = (∑ d', (q d' · r d') · (kv j d' · e d')) · c            the scaled score against row j
    M     = the fold of max over all j of s j, from `ninf`           the row's largest score
    p j   = exp (s j − M)
    row d = ∑ j, (p j / ∑ j', p j') · kv j d                         the weighted sum of the value rows

  Nothing here mentions a program; the kernel's tile and the reference's entry are both shown to be this.
-/
import Idealize.ShloMosaic.PureOps.Ideal

open scoped BigOperators

noncomputable section

namespace Cert.Attn

open Idealize.ShloMosaic

/-- The scaled score of a query row against one key row. -/
def score (c : EReal) (q k r e : Fin 64 → EReal) : EReal :=
  (∑ d' : Fin 64, (q d' * r d') * (k d' * e d')) * c

/-- One output row: the softmax of the scores over the 2048 key rows, applied to the value rows. -/
def attnRow (c ninf : EReal) (q : Fin 64 → EReal) (kv : Fin 2048 → Fin 64 → EReal) (r e : Fin 64 → EReal) (d : Fin 64) : EReal :=
  ∑ j : Fin 2048,
    Ideal.div (Ideal.exp (score c q (kv j) r e - (Finset.univ : Finset (Fin 2048)).fold max ninf (fun k => score c q (kv k) r e)))
        (∑ j' : Fin 2048, Ideal.exp (score c q (kv j') r e - (Finset.univ : Finset (Fin 2048)).fold max ninf (fun k => score c q (kv k) r e)))
      * kv j d

/-- The attention row depends on its arguments only. -/
theorem attnRow_congr {c ninf : EReal} {q q' : Fin 64 → EReal} {kv kv' : Fin 2048 → Fin 64 → EReal} {r r' e e' : Fin 64 → EReal}
    {d d' : Fin 64} (hq : q = q') (hkv : kv = kv') (hr : r = r') (he : e = e') (hd : d = d') :
    attnRow c ninf q kv r e d = attnRow c ninf q' kv' r' e' d' := by
  subst hq hkv hr he hd; rfl

end Cert.Attn

end
-- ==== Proof.IdealPayload.lean ====
/-
  The kernel body's one stored value, read at an index of the output tile, on the extended reals.

  The body's stages over a 512-row query tile `x0`, the head's 2048-row slab `x1` and its two scale rows `x2`, `x3`:
  the scaled scores (a 512×2048 matrix: query row y against key row j), each row's largest score, the exponentials
  of the differences, each row's sum of them, the quotients, and their product with the value rows.  Read at (y, d)
  the result is the attention row of query row y: `Cert.Attn.attnRow`.  A change of float format is the identity on the
  extended reals, a product accumulated into zeros is the plain sum, a row maximum the fold of max, a row sum the sum.
-/
import proofs.«168188_j65481071396855_2_alg».proof.Proof.Gen.KernelIdeal.Skeleton
import proofs.«168188_j65481071396855_2_alg».proof.Proof.LibBlockReads
import proofs.«168188_j65481071396855_2_alg».proof.Proof.LibRowReductions
import proofs.«168188_j65481071396855_2_alg».proof.Proof.AttnSpec
import Idealize.ShloMosaic.Lib.ValueLayout

open scoped BigOperators

noncomputable section

namespace Cert.KernelIdeal.Payload

open Idealize.ShloMosaic Idealize.ShloMosaic.ValueIdx Cert.KernelIdeal Cert.KernelIdeal.Facts₀
open Cert.Lib.BlockReads Cert.Lib.RowReductions Cert.Attn

variable (x0 : Vec Ideal S1x512x64 .f32) (x1 : Vec Ideal S1x2048x64 .f32) (x2 x3 : Vec Ideal S1x1x64 .f32)

/-- The scale 1/8 and the maximum's accumulator −∞, as the body's words. -/
abbrev cW : EReal := Ideal.ofBits .f32 0x3E000000#32
abbrev nW : EReal := Ideal.ofBits .f32 0xFF800000#32

/-- Query row y of the tile, key/value row j of the slab, and the two scale rows, as plain families. -/
abbrev qRow (y : Fin 512) : Fin 64 → EReal := fun d' => x0 (ix3 (0 : Fin 1) y d')
abbrev kvRow (j : Fin 2048) : Fin 64 → EReal := fun d' => x1 (ix3 (0 : Fin 1) j d')
abbrev rRow : Fin 64 → EReal := fun d' => x2 (ix3 (0 : Fin 1) (0 : Fin 1) d')
abbrev eRow : Fin 64 → EReal := fun d' => x3 (ix3 (0 : Fin 1) (0 : Fin 1) d')

/-! ## The body's stages -/

/-- The query tile with each row scaled entry by entry by the first scale row. -/
def qs : FVec Ideal S512x64 .bf16 :=
  truncf .bf16 (mulf (shapeCast S512x64 x0 shapeCasts_S1x512x64_S512x64)
    (broadcastTo S512x64 (shapeCast S1x64 x2 shapeCasts_S1x1x64_S1x64) broadcasts_S1x64_S512x64)) bitsLt_bf16_f32

/-- The slab with each row scaled by the second scale row, transposed. -/
def ksT : FVec Ideal S64x2048 .bf16 :=
  transpose S64x2048 [1, 0]
    (truncf .bf16 (mulf (shapeCast S2048x64 x1 shapeCasts_S1x2048x64_S2048x64)
      (broadcastTo S2048x64 (shapeCast S1x64 x3 shapeCasts_S1x1x64_S1x64) broadcasts_S1x64_S2048x64)) bitsLt_bf16_f32)
    transposes_S2048x64_p1_0_S64x2048

/-- The scaled scores: (scaled queries) · (scaled keys)ᵀ accumulated into zeros, times 1/8. -/
def scores : FVec Ideal S512x2048 .f32 :=
  mulf
    (matmul dot_S512x64_S64x2048_S512x2048_1_0_0_1_n_n none (qs x0 x2) (ksT x1 x3) (constant (F := Ideal) S512x2048 .f32 0x00000000#32))
    (broadcast S512x2048 (Scalar.ofBits (F := Ideal) .f32 0x3E000000#32))

/-- Each row's largest score. -/
def rowMax : FVec Ideal S512 .f32 :=
  multiReduction .maximumf [1] S512 (scores x0 x1 x2 x3) 0xFF800000#32 reduces_S512x2048_S512 (.inl rfl) rfl

/-- The exponentials of the scores less their row's maximum. -/
def expo : FVec Ideal S512x2048 .f32 :=
  exp (subf (scores x0 x1 x2 x3)
    (broadcastTo S512x2048 (shapeCast S512x1 (rowMax x0 x1 x2 x3) shapeCasts_S512_S512x1) broadcasts_S512x1_S512x2048))

/-- Each row's sum of exponentials. -/
def rowSum : FVec Ideal S512 .f32 :=
  multiReduction .add [1] S512 (expo x0 x1 x2 x3) 0x00000000#32 reduces_S512x2048_S512 (.inl rfl) rfl

/-- The softmax weights. -/
def weights : FVec Ideal S512x2048 .f32 :=
  divf (expo x0 x1 x2 x3)
    (broadcastTo S512x2048 (shapeCast S512x1 (rowSum x0 x1 x2 x3) shapeCasts_S512_S512x1) broadcasts_S512x1_S512x2048)

/-- The payload is the stages composed: the weights times the value rows, into zeros, as a 1×512×64 tile. -/
theorem pay_eq : Gen.k0_pay1 (F := Ideal) x0 x1 x2 x3
    = shapeCast S1x512x64
        (matmul dot_S512x2048_S2048x64_S512x64_1_0_0_1_n_n none
          (truncf .bf16 (weights x0 x1 x2 x3) bitsLt_bf16_f32)
          (truncf .bf16 (shapeCast S2048x64 x1 shapeCasts_S1x2048x64_S2048x64) bitsLt_bf16_f32)
          (constant (F := Ideal) S512x64 .f32 0x00000000#32))
        shapeCasts_S512x64_S1x512x64 := rfl

/-! ## Each stage at an index -/

theorem scores_apply (y : Fin 512) (j : Fin 2048) :
    scores x0 x1 x2 x3 (ix2 y j) = score cW (qRow x0 y) (kvRow x1 j) (rRow x2) (eRow x3) := by
  unfold scores score
  show (matmul dot_S512x64_S64x2048_S512x2048_1_0_0_1_n_n none (qs x0 x2) (ksT x1 x3) (constant (F := Ideal) S512x2048 .f32 0x00000000#32)) (ix2 y j) * cW = _
  rw [matmul_zero_rows_apply _ rfl rfl rfl rfl rfl rfl]
  congr 1
  refine Finset.sum_congr rfl fun d' _ => ?_
  unfold qs ksT
  rw [transpose_ix2_apply]
  show (shapeCast S512x64 x0 shapeCasts_S1x512x64_S512x64 (ix2 y d')
        * broadcastTo S512x64 (shapeCast S1x64 x2 shapeCasts_S1x1x64_S1x64) broadcasts_S1x64_S512x64 (ix2 y d'))
      * (shapeCast S2048x64 x1 shapeCasts_S1x2048x64_S2048x64 (ix2 j d')
        * broadcastTo S2048x64 (shapeCast S1x64 x3 shapeCasts_S1x1x64_S1x64) broadcasts_S1x64_S2048x64 (ix2 j d')) = _
  rw [broadcastTo_1b_ab_apply, broadcastTo_1b_ab_apply, shapeCast_1ab_ab_apply, shapeCast_1ab_ab_apply,
    shapeCast_1ab_ab_apply, shapeCast_1ab_ab_apply]

theorem rowMax_apply (y : Fin 512) :
    rowMax x0 x1 x2 x3 (ix1 y)
      = (Finset.univ : Finset (Fin 2048)).fold max nW (fun k => score cW (qRow x0 y) (kvRow x1 k) (rRow x2) (eRow x3)) := by
  unfold rowMax
  refine (rowmax_apply (scores x0 x1 x2 x3) 0xFF800000#32 reduces_S512x2048_S512 (.inl rfl) rfl y).trans ?_
  simp only [scores_apply]
  rfl

theorem expo_apply (y : Fin 512) (j : Fin 2048) :
    expo x0 x1 x2 x3 (ix2 y j)
      = Ideal.exp (score cW (qRow x0 y) (kvRow x1 j) (rRow x2) (eRow x3)
          - (Finset.univ : Finset (Fin 2048)).fold max nW (fun k => score cW (qRow x0 y) (kvRow x1 k) (rRow x2) (eRow x3))) := by
  unfold expo
  show Ideal.exp (scores x0 x1 x2 x3 (ix2 y j)
      - broadcastTo S512x2048 (shapeCast S512x1 (rowMax x0 x1 x2 x3) shapeCasts_S512_S512x1) broadcasts_S512x1_S512x2048 (ix2 y j)) = _
  rw [broadcast_col_apply, shapeCast_col_apply, rowMax_apply, scores_apply]

theorem rowSum_apply (y : Fin 512) :
    rowSum x0 x1 x2 x3 (ix1 y) = ∑ k : Fin 2048, expo x0 x1 x2 x3 (ix2 y k) := by
  unfold rowSum
  exact rowsum_apply (expo x0 x1 x2 x3) 0x00000000#32 reduces_S512x2048_S512 (.inl rfl) rfl y

theorem weights_apply (y : Fin 512) (j : Fin 2048) :
    weights x0 x1 x2 x3 (ix2 y j) = Ideal.div (expo x0 x1 x2 x3 (ix2 y j)) (∑ k : Fin 2048, expo x0 x1 x2 x3 (ix2 y k)) := by
  unfold weights
  show Ideal.div (expo x0 x1 x2 x3 (ix2 y j))
      (broadcastTo S512x2048 (shapeCast S512x1 (rowSum x0 x1 x2 x3) shapeCasts_S512_S512x1) broadcasts_S512x1_S512x2048 (ix2 y j)) = _
  rw [broadcast_col_apply, shapeCast_col_apply, rowSum_apply]

/-- THE PAYLOAD AT AN INDEX: entry (y, d) of the stored tile is the attention row of query row y, at d. -/
theorem pay_apply (y : Fin 512) (d : Fin 64) :
    Gen.k0_pay1 (F := Ideal) x0 x1 x2 x3 (ix3 (0 : Fin 1) y d)
      = attnRow cW nW (qRow x0 y) (kvRow x1) (rRow x2) (eRow x3) d := by
  rw [pay_eq, shapeCast_ab_1ab_apply, matmul_zero_rows_apply _ rfl rfl rfl rfl rfl rfl]
  unfold attnRow
  refine Finset.sum_congr rfl fun j _ => ?_
  show weights x0 x1 x2 x3 (ix2 y j) * shapeCast S2048x64 x1 shapeCasts_S1x2048x64_S2048x64 (ix2 j d) = _
  rw [weights_apply, shapeCast_1ab_ab_apply]
  simp only [expo_apply]

end Cert.KernelIdeal.Payload

end
-- ==== Proof.IdealValue.lean ====
/-
  From the kernel's blocks to its whole output array, on the extended reals.

  Grid point t = (bh, qt) writes back the 512-row tile qt of slab bh.  Its query tile is rows qt·512 … of slab bh of
  the re-laid input, its key/value block the whole slab bh, its scale rows the rows bh of the two tiled tables; so by
  the payload read at an index the tile is, entry by entry, the attention row of the corresponding row of the slab:
  the block of ONE whole-array function `outArr`.  The 64 × 4 tiles cover the 64 × 2048 × 64 array, so after the run
  the output array is `outArr`.
-/
import proofs.«168188_j65481071396855_2_alg».proof.Proof.IdealRun
import proofs.«168188_j65481071396855_2_alg».proof.Proof.IdealPayload
import Idealize.ShloMosaic.PureOps.Ideal
import Idealize.ShloMosaic.Lib.Pipeline.Value
import Idealize.ShloMosaic.Lib.ValueLayout

set_option maxRecDepth 16384

open scoped BigOperators

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload Cert.Attn

variable (m : (ℓ : Loc nD τ sig) → Buf (Elt Ideal) ℓ)

/-- The attention row of row i of slab bh of `X`, under the rows bh of the two tiled scale tables. -/
def attnAt (X : S64x2048x64.Idx → EReal) (Rt Et : S64x1x64.Idx → EReal) (bh : Fin 64) (i : Fin 2048) (d : Fin 64) : EReal :=
  attnRow cW nW (fun d' => X (ix3 bh i d')) (fun j d' => X (ix3 bh j d')) (fun d' => Rt (ix3 bh (0 : Fin 1) d'))
    (fun d' => Et (ix3 bh (0 : Fin 1) d')) d

/-- The kernel's whole output array: entry (bh, i, d) is the attention row of row i of slab bh, at d. -/
def outArr (c : Dev nD) : S64x2048x64.Idx → EReal := fun i =>
  attnAt (V m c main_v2) (V m c main_v6) (V m c main_v10) (i 0) (i 1) (i 2)

theorem hz3 : (![0, 0, 0] : Fin 3 → Nat) = fun _ => 0 := funext fun a => by fin_cases a <;> rfl

/-- The printed index maps, decided over the 256 grid points: the query window moves with the output window, the
    key/value window and the two scale windows sit at the output's slab, and the output's block indices are in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 63 ∧ win0_4.index t (1 : Fin 3) ≤ 3 ∧ win0_4.index t (2 : Fin 3) = 0 :=
  (by decide +kernel : ∀ t : Fin grid0.N, _)

/-- Every tile of the output array is some point's. -/
theorem idx_onto : ∀ (q0 : Fin 64) (q1 : Fin 4), ∃ t : Fin cfg0.N, win0_4.index t = ![q0.val, q1.val, 0] :=
  (by decide +kernel : ∀ (q0 : Fin 64) (q1 : Fin 4), ∃ t : Fin grid0.N, win0_4.index t = ![q0.val, q1.val, 0])

/-- WHAT POINT t WRITES BACK is block t of `outArr`. -/
theorem flushed4_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after4]
  unfold outTile
  rw [View.canon_unit_zero hz3]
  simp only [View.ld_unit_zero (S := S1x512x64) hz3, View.ld_unit_zero (S := S1x2048x64) hz3, View.ld_unit_zero (S := S1x1x64) hz3]
  obtain ⟨e00, e01, e02, e10, e11, e12, e20, e21, e22, e30, e31, e32, b0, b1, e42⟩ := idx_facts t
  funext j
  obtain ⟨u, y, d, rfl⟩ : ∃ (u : Fin 1) (y : Fin 512) (d : Fin 64), j = ix3 u y d := ⟨j 0, j 1, j 2, eq_ix3 j⟩
  obtain rfl : u = 0 := Subsingleton.elim _ _
  show Gen.k0_pay1 (F := Ideal) (iblk m c 0 t) (iblk m c 1 t) (iblk m c 2 t) (iblk m c 3 t) (ix3 (0 : Fin 1) y d)
    = outArr m c (((cfg0.win 4).blk t).view.emb (ix3 (0 : Fin 1) y d))
  refine (pay_apply (iblk m c 0 t) (iblk m c 1 t) (iblk m c 2 t) (iblk m c 3 t) y d).trans ?_
  unfold outArr attnAt
  refine attnRow_congr ?_ ?_ ?_ ?_ ?_
  · funext d'
    refine congrArg (V m c main_v2) (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 512 + 1 * y.val = win0_4.index t (1 : Fin 3) * 512 + 1 * y.val; omega
    | ⟨2, _⟩ => show win0_0.index t (2 : Fin 3) * 64 + 1 * d'.val = d'.val; omega
  · funext j d'
    refine congrArg (V m c main_v2) (funext fun a => Fin.ext ?_)
    match a with
    | ⟨0, _⟩ => show win0_1.index t (0 : Fin 3) * 1 + 1 * 0 = win0_4.index t (0 : Fin 3) * 1 + 1 * 0; omega
    | ⟨1, _⟩ => show win0_1.index t (1 : Fin 3) * 2048 + 1 * j.val = j.val; omega
    | ⟨2, _⟩ => show win0_1.index t (2 : Fin 3) * 64 + 1 * d'.val = d'.val; omega
  · funext d'
    refine congrArg (V m c main_v6) (funext fun a => Fin.ext ?_)
    match a with
    | ⟨0, _⟩ => show win0_2.index t (0 : Fin 3) * 1 + 1 * 0 = win0_4.index t (0 : Fin 3) * 1 + 1 * 0; omega
    | ⟨1, _⟩ => show win0_2.index t (1 : Fin 3) * 1 + 1 * 0 = 0; omega
    | ⟨2, _⟩ => show win0_2.index t (2 : Fin 3) * 64 + 1 * d'.val = d'.val; omega
  · funext d'
    refine congrArg (V m c main_v10) (funext fun a => Fin.ext ?_)
    match a with
    | ⟨0, _⟩ => show win0_3.index t (0 : Fin 3) * 1 + 1 * 0 = win0_4.index t (0 : Fin 3) * 1 + 1 * 0; omega
    | ⟨1, _⟩ => show win0_3.index t (1 : Fin 3) * 1 + 1 * 0 = 0; omega
    | ⟨2, _⟩ => show win0_3.index t (2 : Fin 3) * 64 + 1 * d'.val = d'.val; omega
  · apply Fin.ext
    show d.val = win0_4.index t (2 : Fin 3) * 64 + 1 * d.val
    omega

/-- An index of the output array is in point t's block iff each coordinate is in the block's range on its axis. -/
theorem mem_blk4 (t : Fin cfg0.N) (i : S64x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v11).slice (win0_4.rect t)).set ↔ _
  rw [View.set_slice_whole, Rect.mem_set_unit]
  exact Iff.rfl

/-- Every index of the output array is in some point's block: row i of slab bh is in tile i / 512 of that slab. -/
theorem cover4 (i : S64x2048x64.Idx) : ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT ARRAY after the run is `outArr`. -/
theorem final4 (c : Dev nD) : (dats m 0 c).arrAt 4 cfg0.N = outArr m c :=
  (dats m 0 c).arrAt_eq_of_cover 4 (outArr m c) (fun t _ => flushed4_eq m c t) cover4

end Cert.KernelIdeal.Hand

end
-- ==== Proof.LibHeadRows.lean ====
/-
  The reference's one-operand reduce with a maximum body along the LAST axis of a rank-4 array (batch × head × row ×
  column) read at an index, on the extended reals: at (p, q, r) it is the fold of max, from the initial value's
  element, over the entries (p, q, r, k) of that row.  The rank-4 neighbour of the row maximum of an a×b block.
  Nothing here mentions a program.
-/
import Idealize.ShloMosaic.PureOps.Ideal
import Idealize.ShloMosaic.PureOps.Ideal.Laws
import Idealize.ShloMosaic.PureOps.Reduce
import Idealize.ShloMosaic.Lib.ValueIdx

open scoped BigOperators

namespace Cert.Lib.HeadRows

open Idealize.ShloMosaic Idealize.ShloMosaic.ValueIdx

variable {a b c d : Nat}

/-- The index (p, q, r) with the last coordinate k put back is (p, q, r, k). -/
theorem lift_last4 (h : (⟨4, ![a, b, c, d]⟩ : Shape).Reduces [3] ⟨3, ![a, b, c]⟩) (p : Fin a) (q : Fin b) (r : Fin c)
    (k : Fin ((⟨4, ![a, b, c, d]⟩ : Shape).size 3)) : h.lift (ix3 p q r) k = ix4 p q r (⟨k.val, k.isLt⟩ : Fin d) := by
  funext ax; apply Fin.ext
  match ax with
  | ⟨0, _⟩ => rfl
  | ⟨1, _⟩ => rfl
  | ⟨2, _⟩ => rfl
  | ⟨3, _⟩ => rfl

/-- A one-operand reduce with a maximum body along the last axis of an a×b×c×d array is at (p, q, r) the fold of max,
    from the initial value's element, over the entries (p, q, r, k). -/
theorem host_max_last4_apply {u : Shape} (x : (⟨4, ![a, b, c, d]⟩ : Shape).Idx → Ideal .f32) (init : u.Idx → Ideal .f32)
    (h' : (⟨4, ![a, b, c, d]⟩ : Shape).ReducesTo [3] ⟨3, ![a, b, c]⟩) (hu : 0 < u.numel) (p : Fin a) (q : Fin b) (r : Fin c) :
    Host.reduce (FloatOps.maximumf (F := Ideal) (φ := .f32)) x init h' hu (ix3 p q r)
      = (Finset.univ : Finset (Fin d)).fold max (init (Shape.Idx.first hu)) (fun k => x (ix4 p q r k)) := by
  have h : (⟨4, ![a, b, c, d]⟩ : Shape).Reduces [3] ⟨3, ![a, b, c]⟩ := ⟨h'.1, Nat.succ_pos 2, h'.2⟩
  rw [Host.reduce_eq_fold_single FloatOps.maximumf x init h' h hu]
  have hf : (x ∘ h.lift (ix3 p q r)) = fun k : Fin d => x (ix4 p q r k) :=
    funext fun k => congrArg x (lift_last4 h p q r k)
  exact congrArg (fun f => Finset.fold max (init (Shape.Idx.first hu)) f (Finset.univ : Finset (Fin d))) hf

end Cert.Lib.HeadRows
-- ==== Proof.RefAttn.lean ====
/-
  The reference's result before its last re-laying, read at an index, on the extended reals.

  With `X` the input re-laid as batch × head × row × 64 and `a1`, `a2` the two head × 64 scale tables, entry
  (b, h, i, d) of the reference's weighted sum is the attention row of query row `X(b, h, i, ·)` against the slab
  `X(b, h, ·, ·)` under the scale rows `a1(h, ·)`, `a2(h, ·)`: `Cert.Attn.attnRow`.  Each stage is read through the
  generated read-at-an-index lemmas; the maximum is the fold of max from −∞, and the reference's second
  maximum with −∞ changes nothing; its sum starts from zero.
-/
import proofs.«168188_j65481071396855_2_alg».proof.Proof.Gen.ReferenceIdeal.Read
import proofs.«168188_j65481071396855_2_alg».proof.Proof.LibRowReductions
import proofs.«168188_j65481071396855_2_alg».proof.Proof.LibHeadRows
import proofs.«168188_j65481071396855_2_alg».proof.Proof.AttnSpec

open scoped BigOperators

noncomputable section

namespace Cert.ReferenceIdeal.RefAttn

open Idealize.ShloMosaic Idealize.ShloMosaic.ValueIdx Cert.ReferenceIdeal Cert.ReferenceIdeal.Read
open Cert.Lib.RowReductions Cert.Lib.HeadRows Cert.Attn

variable (a0 : (⟨S4x2048x1024, .f32⟩ : BufTy).Contents (Elt Ideal)) (a1 a2 : (⟨S16x64, .f32⟩ : BufTy).Contents (Elt Ideal))

local notation "cW" => (Ideal.ofBits FTy.f32 0x3E000000#32 : EReal)
local notation "nW" => (Ideal.ofBits FTy.f32 0xFF800000#32 : EReal)

/-- Row i of head h of batch b of the re-laid input, and head h's two scale rows, as plain families. -/
abbrev xRow (b : Fin 4) (h : Fin 16) (i : Fin 2048) : Fin 64 → EReal := fun d' => val_main_v1 (F := Ideal) a0 (ix4 b h i d')
abbrev rRow (h : Fin 16) : Fin 64 → EReal := fun d' => a1 (ix2 h d')
abbrev eRow (h : Fin 16) : Fin 64 → EReal := fun d' => a2 (ix2 h d')

theorem v3_apply (b : Fin 4) (h : Fin 16) (t : Fin 2048) (d' : Fin 64) :
    val_main_v3 (F := Ideal) a1 (ix4 b h t d') = a1 (ix2 h d') := by
  rw [val_main_v3_apply, val_main_v2_apply]
  exact congrArg a1 (funext fun a => Fin.ext (by match a with | ⟨0, _⟩ => rfl | ⟨1, _⟩ => rfl))

theorem v6_apply (b : Fin 4) (h : Fin 16) (t : Fin 2048) (d' : Fin 64) :
    val_main_v6 (F := Ideal) a2 (ix4 b h t d') = a2 (ix2 h d') := by
  rw [val_main_v6_apply, val_main_v5_apply]
  exact congrArg a2 (funext fun a => Fin.ext (by match a with | ⟨0, _⟩ => rfl | ⟨1, _⟩ => rfl))

/-- The scaled score of row i against row j. -/
theorem v10_apply (b : Fin 4) (h : Fin 16) (i j : Fin 2048) :
    val_main_v10 (F := Ideal) a0 a1 a2 (ix4 b h i j) = score cW (xRow a0 b h i) (xRow a0 b h j) (rRow a1 h) (eRow a2 h) := by
  rw [val_main_v10_apply, val_main_v8_apply, val_main_v9_apply, val_main_cst_apply]
  unfold score
  show (∑ k : Fin 64, _) * cW = _
  congr 1
  refine Finset.sum_congr rfl fun k _ => ?_
  have hl : lidx_main_v8 (ix4 b h i j) k = ix4 b h i k :=
    funext fun a => Fin.ext (by match a with | ⟨0, _⟩ => rfl | ⟨1, _⟩ => rfl | ⟨2, _⟩ => rfl | ⟨3, _⟩ => rfl)
  have hr : ridx_main_v8 (ix4 b h i j) k = ix4 b h j k :=
    funext fun a => Fin.ext (by match a with | ⟨0, _⟩ => rfl | ⟨1, _⟩ => rfl | ⟨2, _⟩ => rfl | ⟨3, _⟩ => rfl)
  rw [hl, hr, val_main_v4_apply, val_main_v7_apply, v3_apply, v6_apply]
  rfl

/-- Row i's largest score. -/
theorem v11_apply (b : Fin 4) (h : Fin 16) (i : Fin 2048) :
    val_main_v11 (F := Ideal) a0 a1 a2 (ix3 b h i)
      = (Finset.univ : Finset (Fin 2048)).fold max nW (fun k => score cW (xRow a0 b h i) (xRow a0 b h k) (rRow a1 h) (eRow a2 h)) := by
  unfold val_main_v11
  rw [host_max_last4_apply]
  simp only [v10_apply]
  rfl

/-- The reference takes the maximum with −∞ once more: nothing changes. -/
theorem v13_apply (b : Fin 4) (h : Fin 16) (i : Fin 2048) :
    val_main_v13 (F := Ideal) a0 a1 a2 (ix3 b h i)
      = (Finset.univ : Finset (Fin 2048)).fold max nW (fun k => score cW (xRow a0 b h i) (xRow a0 b h k) (rRow a1 h) (eRow a2 h)) := by
  rw [val_main_v13_apply, val_main_v12_apply, val_main_cst_1_apply, v11_apply]
  show max nW _ = _
  rw [ofBits_neg_inf_f32]
  exact fold_max_bot _

theorem v15_apply (b : Fin 4) (h : Fin 16) (i j : Fin 2048) :
    val_main_v15 (F := Ideal) a0 a1 a2 (ix4 b h i j) = val_main_v13 (F := Ideal) a0 a1 a2 (ix3 b h i) := by
  rw [val_main_v15_apply, val_main_v14_apply]
  exact congrArg _ (funext fun a => Fin.ext (by match a with | ⟨0, _⟩ => rfl | ⟨1, _⟩ => rfl | ⟨2, _⟩ => rfl))

/-- The exponential of a score less its row's maximum. -/
theorem v17_apply (b : Fin 4) (h : Fin 16) (i j : Fin 2048) :
    val_main_v17 (F := Ideal) a0 a1 a2 (ix4 b h i j)
      = Ideal.exp (score cW (xRow a0 b h i) (xRow a0 b h j) (rRow a1 h) (eRow a2 h)
          - (Finset.univ : Finset (Fin 2048)).fold max nW (fun k => score cW (xRow a0 b h i) (xRow a0 b h k) (rRow a1 h) (eRow a2 h))) := by
  rw [val_main_v17_apply, val_main_v16_apply, v10_apply, v15_apply, v13_apply]
  rfl

/-- Row i's sum of exponentials (the reference's sum starts from the zero word). -/
theorem v18_apply (b : Fin 4) (h : Fin 16) (i : Fin 2048) :
    val_main_v18 (F := Ideal) a0 a1 a2 (ix3 b h i) = ∑ k : Fin 2048, val_main_v17 (F := Ideal) a0 a1 a2 (ix4 b h i k) := by
  rw [val_main_v18_apply, val_main_cst_2_apply]
  show Ideal.ofBits .f32 0x00000000#32 + _ = _
  rw [Ideal.ofBits_zero_f32, zero_add]
  refine Finset.sum_congr rfl fun k _ => congrArg _ (funext fun a => Fin.ext (by
    match a with | ⟨0, _⟩ => rfl | ⟨1, _⟩ => rfl | ⟨2, _⟩ => rfl | ⟨3, _⟩ => rfl))

theorem v20_apply (b : Fin 4) (h : Fin 16) (i j : Fin 2048) :
    val_main_v20 (F := Ideal) a0 a1 a2 (ix4 b h i j) = val_main_v18 (F := Ideal) a0 a1 a2 (ix3 b h i) := by
  rw [val_main_v20_apply, val_main_v19_apply]
  exact congrArg _ (funext fun a => Fin.ext (by match a with | ⟨0, _⟩ => rfl | ⟨1, _⟩ => rfl | ⟨2, _⟩ => rfl))

/-- THE REFERENCE AT AN INDEX: entry (b, h, i, d) of the weighted sum is the attention row of row i of head h of
    batch b, at d. -/
theorem v22_apply (b : Fin 4) (h : Fin 16) (i : Fin 2048) (d : Fin 64) :
    val_main_v22 (F := Ideal) a0 a1 a2 (ix4 b h i d)
      = attnRow cW nW (xRow a0 b h i) (fun j => xRow a0 b h j) (rRow a1 h) (eRow a2 h) d := by
  rw [val_main_v22_apply]
  unfold attnRow
  refine Finset.sum_congr rfl fun k _ => ?_
  have hl : lidx_main_v22 (ix4 b h i d) k = ix4 b h i k :=
    funext fun a => Fin.ext (by match a with | ⟨0, _⟩ => rfl | ⟨1, _⟩ => rfl | ⟨2, _⟩ => rfl | ⟨3, _⟩ => rfl)
  have hr : ridx_main_v22 (ix4 b h i d) k = ix4 b h k d :=
    funext fun a => Fin.ext (by match a with | ⟨0, _⟩ => rfl | ⟨1, _⟩ => rfl | ⟨2, _⟩ => rfl | ⟨3, _⟩ => rfl)
  rw [hl, hr, val_main_v21_apply, v20_apply, v18_apply]
  simp only [v17_apply]
  rfl

end Cert.ReferenceIdeal.RefAttn

end
-- ==== Proof.HeadSlabs.lean ====
/-
  The kernel's slabs are the reference's heads, and the two results agree.

  The kernel re-lays the input as 64 slabs, slab b·16 + h being head h of batch b of the reference's
  batch × head × row × 64 array (the same transpose of the same reshape, viewed with the two leading axes merged); its two
  tiled scale tables hold at slab b·16 + h the row h of the scale tables.  So the kernel's output array, viewed as
  batch × head × row × 64, is entry by entry the reference's weighted sum: both are the attention row of the same row
  under the same scale rows.  Both programs end with the same transpose and the same reshape of that array, hence
  with equal results.
-/
import proofs.«168188_j65481071396855_2_alg».proof.Proof.IdealValue
import proofs.«168188_j65481071396855_2_alg».proof.Proof.RefAttn
import proofs.«168188_j65481071396855_2_alg».proof.Proof.Gen.ReferenceIdeal.Run
import Idealize.ShloMosaic.Lib.StableHlo.Run

set_option maxRecDepth 16384

open scoped BigOperators

noncomputable section

namespace Cert.HeadSlabs

open Idealize.ShloMosaic Idealize.ShloMosaic.TcCoe Idealize.ShloMosaic.ValueIdx
open Idealize.SL Idealize.SL.Sem
open Cert.Attn

variable (m : (ℓ : Loc Cert.KernelIdeal.nD Cert.KernelIdeal.τ Cert.KernelIdeal.sig) → Buf (Elt Ideal) ℓ)

/-! ## The arrays the region finds, from the arguments -/

section Entry
open Cert.KernelIdeal Cert.KernelIdeal.Gen Cert.KernelIdeal.Hand

/-- The re-laid input is the reference's batch × head × row × 64 array with its two leading axes merged. -/
theorem V_slabs (c : Dev nD) : (V m c main_v2 : S64x2048x64.Idx → EReal)
    = shapeCast S64x2048x64 (Cert.ReferenceIdeal.Read.val_main_v1 (F := Ideal) (m ((c.tc : Thread nD τ).loc main_arg0)))
        Gen.shapeCasts_S4x16x2048x64_S64x2048x64 := by
  show StableHlo.after hostOps0 (fun b => m (c, b)) (Proc.devRef .tc main_v2) = _
  after_results
  rfl

/-- The first tiled scale table, from the first scale table. -/
theorem V_rot (c : Dev nD) : (V m c main_v6 : S64x1x64.Idx → EReal)
    = shapeCast S64x1x64 (shapeCast S64x64 (broadcastInDim S4x16x1x64 ![0, 1, 2, 3] Gen.bcast_S1x16x1x64_S4x16x1x64_0_1_2_3
        (shapeCast S1x16x1x64 (m ((c.tc : Thread nD τ).loc main_arg1)) Gen.shapeCasts_S16x64_S1x16x1x64))
        Gen.shapeCasts_S4x16x1x64_S64x64) Gen.shapeCasts_S64x64_S64x1x64 := by
  show StableHlo.after hostOps0 (fun b => m (c, b)) (Proc.devRef .tc main_v6) = _
  after_results
  rfl

/-- The second tiled scale table, from the second scale table. -/
theorem V_ent (c : Dev nD) : (V m c main_v10 : S64x1x64.Idx → EReal)
    = shapeCast S64x1x64 (shapeCast S64x64 (broadcastInDim S4x16x1x64 ![0, 1, 2, 3] Gen.bcast_S1x16x1x64_S4x16x1x64_0_1_2_3
        (shapeCast S1x16x1x64 (m ((c.tc : Thread nD τ).loc main_arg2)) Gen.shapeCasts_S16x64_S1x16x1x64))
        Gen.shapeCasts_S4x16x1x64_S64x64) Gen.shapeCasts_S64x64_S64x1x64 := by
  show StableHlo.after hostOps0 (fun b => m (c, b)) (Proc.devRef .tc main_v10) = _
  after_results
  rfl

/-- A head × 64 table tiled over the 4 batches and viewed as 64 × 1 × 64 holds at slab b·16 + h the table's row h. -/
theorem tiled_apply (a1 : S16x64.Idx → EReal) (b : Fin 4) (h : Fin 16) (d' : Fin 64) (hbh : b.val * 16 + h.val < 64) :
    shapeCast S64x1x64 (shapeCast S64x64 (broadcastInDim S4x16x1x64 ![0, 1, 2, 3] Gen.bcast_S1x16x1x64_S4x16x1x64_0_1_2_3
        (shapeCast S1x16x1x64 a1 Gen.shapeCasts_S16x64_S1x16x1x64)) Gen.shapeCasts_S4x16x1x64_S64x64)
        Gen.shapeCasts_S64x64_S64x1x64 (ix3 (⟨b.val * 16 + h.val, hbh⟩ : Fin 64) (0 : Fin 1) d') = a1 (ix2 h d') := by
  refine (shapeCast_apply _ Gen.shapeCasts_S64x64_S64x1x64 _ (ix2 (⟨b.val * 16 + h.val, hbh⟩ : Fin 64) d') ?_).trans ?_
  · rw [Shape.rowMajor_val_two, Shape.rowMajor_val_three]
    show (b.val * 16 + h.val) * 64 + d'.val = ((b.val * 16 + h.val) * 1 + 0) * 64 + d'.val
    omega
  refine (shapeCast_apply _ Gen.shapeCasts_S4x16x1x64_S64x64 _ (ix4 b h (0 : Fin 1) d') ?_).trans ?_
  · rw [Shape.rowMajor_val_four, Shape.rowMajor_val_two]
    show ((b.val * 16 + h.val) * 1 + 0) * 64 + d'.val = (b.val * 16 + h.val) * 64 + d'.val
    omega
  refine (broadcastInDim_apply _ Gen.bcast_S1x16x1x64_S4x16x1x64_0_1_2_3 _ _ (ix4 (0 : Fin 1) h (0 : Fin 1) d') (fun a => ?_)).trans ?_
  · match a with
    | ⟨0, _⟩ => show 0 = if (1 : Nat) = 1 then 0 else b.val; rw [if_pos rfl]
    | ⟨1, _⟩ => show h.val = if (16 : Nat) = 1 then 0 else h.val; rw [if_neg (by decide)]
    | ⟨2, _⟩ => show 0 = if (1 : Nat) = 1 then 0 else 0; rw [if_pos rfl]
    | ⟨3, _⟩ => show d'.val = if (64 : Nat) = 1 then 0 else d'.val; rw [if_neg (by decide)]
  refine shapeCast_apply a1 Gen.shapeCasts_S16x64_S1x16x1x64 _ (ix2 h d') ?_
  rw [Shape.rowMajor_val_two, Shape.rowMajor_val_four]
  show h.val * 64 + d'.val = ((0 * 16 + h.val) * 1 + 0) * 64 + d'.val
  omega

/-- Row t of slab b·16 + h of the merged array is row t of head h of batch b. -/
theorem slabs_apply (X : S4x16x2048x64.Idx → EReal) (b : Fin 4) (h : Fin 16) (t : Fin 2048) (d' : Fin 64) (hbh : b.val * 16 + h.val < 64) :
    shapeCast S64x2048x64 X Gen.shapeCasts_S4x16x2048x64_S64x2048x64 (ix3 (⟨b.val * 16 + h.val, hbh⟩ : Fin 64) t d') = X (ix4 b h t d') := by
  refine shapeCast_apply X Gen.shapeCasts_S4x16x2048x64_S64x2048x64 _ (ix4 b h t d') ?_
  rw [Shape.rowMajor_val_four, Shape.rowMajor_val_three]
  show ((b.val * 16 + h.val) * 2048 + t.val) * 64 + d'.val = ((b.val * 16 + h.val) * 2048 + t.val) * 64 + d'.val
  rfl

/-! ## The kernel's output array, viewed as batch × head × row × 64, is the reference's weighted sum -/

theorem relaid_eq (c : Dev nD) :
    shapeCast S4x16x2048x64 (outArr m c) Gen.shapeCasts_S64x2048x64_S4x16x2048x64
      = Cert.ReferenceIdeal.Read.val_main_v22 (F := Ideal) (m ((c.tc : Thread nD τ).loc main_arg0))
          (m ((c.tc : Thread nD τ).loc main_arg1)) (m ((c.tc : Thread nD τ).loc main_arg2)) := by
  funext i
  obtain ⟨b, h, t, d, rfl⟩ : ∃ (b : Fin 4) (h : Fin 16) (t : Fin 2048) (d : Fin 64), i = ix4 b h t d :=
    ⟨i 0, i 1, i 2, i 3, eq_ix4 i⟩
  have hbh : b.val * 16 + h.val < 64 := by have := b.isLt; have := h.isLt; omega
  refine ((shapeCast_apply (outArr m c) Gen.shapeCasts_S64x2048x64_S4x16x2048x64 (ix4 b h t d)
    (ix3 (⟨b.val * 16 + h.val, hbh⟩ : Fin 64) t d) ?_).trans ?_).trans (Cert.ReferenceIdeal.RefAttn.v22_apply _ _ _ b h t d).symm
  · rw [Shape.rowMajor_val_three, Shape.rowMajor_val_four]
    show ((b.val * 16 + h.val) * 2048 + t.val) * 64 + d.val = ((b.val * 16 + h.val) * 2048 + t.val) * 64 + d.val
    rfl
  show attnAt (V m c main_v2) (V m c main_v6) (V m c main_v10) (⟨b.val * 16 + h.val, hbh⟩ : Fin 64) t d = _
  unfold attnAt
  rw [V_slabs, V_rot, V_ent]
  refine attnRow_congr ?_ ?_ ?_ ?_ rfl
  · funext d'; exact slabs_apply _ b h t d' hbh
  · funext j d'; exact slabs_apply _ b h j d' hbh
  · funext d'; exact tiled_apply _ b h d' hbh
  · funext d'; exact tiled_apply _ b h d' hbh

/-! ## The common tail, and the kernel's result -/

/-- Both programs' last two operations: transpose the batch × head × row × 64 array back to batch × row × head × 64
    and merge the two trailing axes. -/
def tail (Y : S4x16x2048x64.Idx → EReal) : S4x2048x1024.Idx → EReal :=
  shapeCast S4x2048x1024 (transpose S4x2048x16x64 [0, 2, 1, 3] Y Gen.transposes_S4x16x2048x64_S4x2048x16x64_0_2_1_3)
    Gen.shapeCasts_S4x2048x16x64_S4x2048x1024

/-- The kernel's result: the tail of its output array viewed as batch × head × row × 64. -/
theorem W2_out (c : Dev nD) : (W2 m c (Proc.devRef .tc main_v14) : S4x2048x1024.Idx → EReal)
    = tail (shapeCast S4x16x2048x64 (outArr m c) Gen.shapeCasts_S64x2048x64_S4x16x2048x64) := by
  have h1 : (W2 m c (Proc.devRef .tc main_v14) : S4x2048x1024.Idx → EReal)
      = tail (shapeCast S4x16x2048x64 (W1 m c (Proc.devRef .tc main_v11)) Gen.shapeCasts_S64x2048x64_S4x16x2048x64) := by
    show StableHlo.after hostOps1 (W1 m c) (Proc.devRef .tc main_v14) = _
    after_results
    rfl
  rw [h1, W1_out, final4]

end Entry

/-- The reference's result is the same tail of its weighted sum. -/
theorem ref_out (a0 : (⟨Cert.ReferenceIdeal.S4x2048x1024, .f32⟩ : BufTy).Contents (Elt Ideal))
    (a1 a2 : (⟨Cert.ReferenceIdeal.S16x64, .f32⟩ : BufTy).Contents (Elt Ideal)) :
    Cert.ReferenceIdeal.Read.val_main_v24 (F := Ideal) a0 a1 a2 = tail (Cert.ReferenceIdeal.Read.val_main_v22 (F := Ideal) a0 a1 a2) := rfl

end Cert.HeadSlabs

end
-- ==== Proof.lean ====
/-
  Single-pass scaled dot-product attention with per-head diagonal scalings of the queries and keys: a Pallas kernel
  over a (batch·head) × (query tile) grid against the jnp reference, equal on the extended reals.

  Both programs compute, for every batch b, head h, row i and column d,

      out(b, i, h·64 + d) = ∑ j, softmax_j (s(i, ·)) · x(b, j, h·64 + d),
      s(i, j) = (∑ d', (x(b, i, h·64 + d')·rot(h, d')) · (x(b, j, h·64 + d')·ent(h, d'))) / 8,

  the softmax taken with the row's maximum subtracted (`Proof/AttnSpec.lean`).  The kernel re-lays the input into 64
  slabs (slab b·16 + h = head h of batch b), tiles the two scale tables over the batches, and at grid point (bh, qt)
  computes 512 rows of slab bh against the whole slab; the reference works on the batch × head × row × 64 array at once.
  On the extended reals a change of float format is the identity, a product accumulated into zeros and the host's
  contraction are the same sum, a lane maximum and the host's maximum-reduce are the same fold from −∞ (and the
  reference's further maximum with −∞ changes nothing), and the scale 1/8 is the same word on both sides: the two
  results are one function of the arguments, with no use of the inputs' finiteness.

  The modules: `IdealBody` / `BitsBody` (the kernel body's triple and the pipeline's proof data, for the idealized and
  the word-level kernel), `IdealRun` / `BitsRun` (@main as host lines, region, host lines; the re-laid input is read
  through TWO windows, so its buffer's share is split between them at the region's entry and joined at its exit; the
  frames), `IdealPayload` (the body's stored value at an index), `IdealValue` (from the tiles to the whole output
  array), `RefAttn` (the reference's weighted sum at an index), `HeadSlabs` (slabs are heads; the common tail).
-/
import proofs.«168188_j65481071396855_2_alg».proof.Defs
import proofs.«168188_j65481071396855_2_alg».proof.Proof.Gen.Kernel
import proofs.«168188_j65481071396855_2_alg».proof.Proof.Gen.KernelIdeal
import proofs.«168188_j65481071396855_2_alg».proof.Proof.Gen.ReferenceIdeal
import proofs.«168188_j65481071396855_2_alg».proof.Proof.Gen.ReferenceIdeal.Run
import proofs.«168188_j65481071396855_2_alg».proof.Proof.Gen.ReferenceIdeal.Read
import proofs.«168188_j65481071396855_2_alg».proof.Proof.Gen.Pre_finite_inputs
import proofs.«168188_j65481071396855_2_alg».proof.Proof.BitsRun
import proofs.«168188_j65481071396855_2_alg».proof.Proof.HeadSlabs
import Idealize.ShloMosaic.Adequacy
import Idealize.ShloMosaic.Init

noncomputable section

namespace Cert.Proof

open Idealize.ShloMosaic Idealize.ShloMosaic.TcCoe Idealize.SL.Sem

/-- The word-level kernel runs to the end, nothing faulting, its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result is the common tail of its output array viewed as batch × head × row × 64,
    the reference's the same tail of its weighted sum, and those two arrays are equal entry by entry. -/
theorem algebraic : Cert.algebraic_KernelIdeal_ReferenceIdeal := by
  intro m ρ m' ρ' _ hagree
  refine ⟨fun c => Cert.HeadSlabs.tail (shapeCast Cert.KernelIdeal.S4x16x2048x64 (Cert.KernelIdeal.Hand.outArr m c)
    Cert.KernelIdeal.Gen.shapeCasts_S64x2048x64_S4x16x2048x64), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v14 (by decide))).trans (Cert.HeadSlabs.W2_out m c),
      (h c _ (Cert.KernelIdeal.Hand.mem_uc Cert.KernelIdeal.main_arg0 (by decide))).trans
        (Cert.KernelIdeal.Hand.notW0 m c Cert.KernelIdeal.main_arg0 (.inl rfl)),
      (h c _ (Cert.KernelIdeal.Hand.mem_uc Cert.KernelIdeal.main_arg1 (by decide))).trans
        (Cert.KernelIdeal.Hand.notW0 m c Cert.KernelIdeal.main_arg1 (.inr (.inl rfl))),
      (h c _ (Cert.KernelIdeal.Hand.mem_uc Cert.KernelIdeal.main_arg2 (by decide))).trans
        (Cert.KernelIdeal.Hand.notW0 m c Cert.KernelIdeal.main_arg2 (.inr (.inr rfl)))⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, (hagree c).1, (hagree c).2.1, (hagree c).2.2]
    exact (Cert.HeadSlabs.ref_out _ _ _).trans (congrArg Cert.HeadSlabs.tail (Cert.HeadSlabs.relaid_eq m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
